-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S1024 .f32) (main_arg2 : FVec F S1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024 : Shape := ⟨1, ![1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S4x2048x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x512x1024, .f32⟩
  | .local _ .vmem, ⟨18, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.GlueHost.lean ====
/-
  What each launch finds in its input arrays.

  Before the projection launch the host flattens the activations `[4, 2048, 1024]` to `[8192, 1024]` — row
  `b * 2048 + s` of the flat array is row `(b, s)` of the activations — and changes the format of the three weight
  matrices, which over the extended reals changes nothing.  Between the two launches it reshapes each projection
  `[8192, 1024]` back to `[4, 2048, 1024]`, the same correspondence of rows read the other way.
-/
import proofs.«163229_j65481071408069_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.ValueIdx

/-- The flat row of position `s` of batch `b`. -/
def rowOf (b : Fin 4) (s : Fin 2048) : Fin 8192 := ⟨b.val * 2048 + s.val, by have := b.isLt; have := s.isLt; omega⟩

/-- The flattened array at `(rowOf b s, d)` is the array at `(b, s, d)`. -/
theorem flatten_apply {α : Type} (x : S4x2048x1024.Idx → α) (h : S4x2048x1024.ShapeCasts S8192x1024)
    (b : Fin 4) (s : Fin 2048) (d : Fin 1024) :
    shapeCast S8192x1024 x h (ix2 (rowOf b s) d) = x (ix3 b s d) :=
  shapeCast_apply x h _ _ (by
    rw [Shape.rowMajor_val_two, Shape.rowMajor_val_three]
    show (b.val * 2048 + s.val) * 1024 + d.val = (b.val * 2048 + s.val) * 1024 + d.val
    rfl)

/-- The array reshaped back at `(b, s, d)` is the flat array at `(rowOf b s, d)`. -/
theorem unflatten_apply {α : Type} (y : S8192x1024.Idx → α) (h : S8192x1024.ShapeCasts S4x2048x1024)
    (b : Fin 4) (s : Fin 2048) (d : Fin 1024) :
    shapeCast S4x2048x1024 y h (ix3 b s d) = y (ix2 (rowOf b s) d) :=
  shapeCast_apply y h _ _ (by
    rw [Shape.rowMajor_val_two, Shape.rowMajor_val_three]
    show (b.val * 2048 + s.val) * 1024 + d.val = (b.val * 2048 + s.val) * 1024 + d.val
    rfl)

variable (m : (ℓ : Loc nD τ sig) → Buf (Elt Ideal) ℓ) (ρ : Dev nD → PrngReg)

/-! ## Entering the projection launch -/

theorem entry0_x (c : Dev nD) : (V1 m ρ c main_v0 : S8192x1024.Idx → EReal)
    = shapeCast S8192x1024 (m ((c : Thread nD τ).loc main_arg0)) shapeCasts_S4x2048x1024_S8192x1024 := by
  show StableHlo.after hostOps0 (W0 m ρ c) (Proc.devRef .tc main_v0) = _
  after_results
  rfl

theorem entry0_wq (c : Dev nD) : (V1 m ρ c main_v1 : S1024x1024.Idx → EReal)
    = (m ((c : Thread nD τ).loc main_arg3) : S1024x1024.Idx → EReal) := by
  show StableHlo.after hostOps0 (W0 m ρ c) (Proc.devRef .tc main_v1) = _
  after_results
  rfl

theorem entry0_wk (c : Dev nD) : (V1 m ρ c main_v2 : S1024x1024.Idx → EReal)
    = (m ((c : Thread nD τ).loc main_arg4) : S1024x1024.Idx → EReal) := by
  show StableHlo.after hostOps0 (W0 m ρ c) (Proc.devRef .tc main_v2) = _
  after_results
  rfl

theorem entry0_wv (c : Dev nD) : (V1 m ρ c main_v3 : S1024x1024.Idx → EReal)
    = (m ((c : Thread nD τ).loc main_arg5) : S1024x1024.Idx → EReal) := by
  show StableHlo.after hostOps0 (W0 m ρ c) (Proc.devRef .tc main_v3) = _
  after_results
  rfl

/-- The flat activations the projection launch reads, at a row and a feature. -/
theorem entry0_x_apply (c : Dev nD) (b : Fin 4) (s : Fin 2048) (d : Fin 1024) :
    (V1 m ρ c main_v0 : S8192x1024.Idx → EReal) (ix2 (rowOf b s) d) = m ((c : Thread nD τ).loc main_arg0) (ix3 b s d) := by
  rw [entry0_x]
  exact flatten_apply _ _ b s d

/-! ## Entering the attention launch -/

theorem entry1_q (c : Dev nD) : (V3 m ρ c main_v5 : S4x2048x1024.Idx → EReal)
    = shapeCast S4x2048x1024 ((dat0 (V1 m ρ) c).arrAt 4 cfg0.N) shapeCasts_S8192x1024_S4x2048x1024 := by
  rw [← W2_arr m ρ c 4]
  show StableHlo.after hostOps1 (W2 m ρ c) (Proc.devRef .tc main_v5) = _
  after_results
  rfl

theorem entry1_k (c : Dev nD) : (V3 m ρ c main_v6 : S4x2048x1024.Idx → EReal)
    = shapeCast S4x2048x1024 ((dat0 (V1 m ρ) c).arrAt 5 cfg0.N) shapeCasts_S8192x1024_S4x2048x1024 := by
  rw [← W2_arr m ρ c 5]
  show StableHlo.after hostOps1 (W2 m ρ c) (Proc.devRef .tc main_v6) = _
  after_results
  rfl

theorem entry1_v (c : Dev nD) : (V3 m ρ c main_v7 : S4x2048x1024.Idx → EReal)
    = shapeCast S4x2048x1024 ((dat0 (V1 m ρ) c).arrAt 6 cfg0.N) shapeCasts_S8192x1024_S4x2048x1024 := by
  rw [← W2_arr m ρ c 6]
  show StableHlo.after hostOps1 (W2 m ρ c) (Proc.devRef .tc main_v7) = _
  after_results
  rfl

end Cert.KernelIdeal.Glue

end
-- ==== Proof.KernelRun.lean ====
/-
  The idealized kernel's run with its result array named.

  The program is four stretches in order: host operations (a reshape of the activations, three format changes of the
  weights), the projection launch, host operations (three reshapes of the projections), the attention launch.  The
  library's theorem for a program of several launches among host stretches gives, from the thread state at each
  boundary, that every weakly fair execution terminates without a fault and that at the end every buffer that
  outlives a launch holds the last boundary's contents.  Read at the six argument buffers those contents are the
  launch memory; read at the result buffer they are what the attention launch's write-backs leave in its output
  array — its proof data's array after the last grid point.
-/
import proofs.«163229_j65481071408069_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the attention launch's output array (its fourth window's). -/
theorem result_arr (c : Dev nD) :
    W4 m ρ c (Proc.devRef .tc main_v8) = (dat1 (V3 m ρ) c).arrAt 3 cfg1.N :=
  W4_arr m ρ c 3

set_option backward.isDefEq.respectTransparency.types false in
/-- Every weakly fair execution terminates, nothing faulting, with the result buffer at the last boundary's
    contents and the six argument buffers as launched. -/
theorem run_named : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.NamedRun

end
-- ==== Proof.Spec.lean ====
/-
  Single-head softmax attention, stated once over the extended reals, index by index.

  The activations `x` are a `[4, 2048, 1024]` array (batch, position, feature) and each weight matrix `w` is
  `[1024, 1024]` (output feature, input feature).  A projection is `x · wᵀ`: entry `(b, s, e)` is the inner
  product of row `(b, s)` of `x` with row `e` of `w`.  From projected queries `Q`, keys `K` and values `V`:

    scores  S b q k = ∑ e, Q b q e * K b k e
    rowMax  M b q   = the maximum of S b q k over k (a fold of `max` from -∞)
    weight  P b q k = exp (S b q k - M b q)
    denom   L b q   = ∑ k, P b q k

  and the attention output is written in two arrangements that differ in where the division by `L` sits:

    outK b q e = (∑ k, P b q k * V b k e) / L b q        (divide the weighted sum once)
    outR b q e = ∑ k, (P b q k / L b q) * V b k e        (normalise the weights, then sum)

  The query projection carries the factor `1/√1024 = 1/32`, again in two spellings: `qK` multiplies by the
  binary constant `2⁻⁵`, `qR` divides by the square root of `1024`.  That the spellings agree is proved elsewhere;
  this module only fixes the functions.
-/
import Idealize.ShloMosaic.PureOps.Ideal
import Idealize.ShloMosaic.Lib.ValueIdx

noncomputable section

namespace Cert.Attn

open Idealize.ShloMosaic Idealize.ShloMosaic.ValueIdx

/-- The shape of the activations, of each projection and of the result. -/
abbrev SX : Shape := ⟨3, ![4, 2048, 1024]⟩
/-- The shape of a weight matrix. -/
abbrev SW : Shape := ⟨2, ![1024, 1024]⟩

/-- A per-coordinate array of projected features: batch, position, feature. -/
abbrev Feat := Fin 4 → Fin 2048 → Fin 1024 → EReal
/-- A per-coordinate array of scores: batch, query position, key position. -/
abbrev Score := Fin 4 → Fin 2048 → Fin 2048 → EReal

/-- An array `[4, 2048, 1024]` read by coordinates. -/
def at3 (a : SX.Idx → EReal) : Feat := fun b s e => a (ix3 b s e)

/-- The projection `x · wᵀ`: row `(b, s)` of `x` against row `e` of `w`. -/
def proj (x : SX.Idx → EReal) (w : SW.Idx → EReal) : Feat :=
  fun b s e => ∑ d : Fin 1024, x (ix3 b s d) * w (ix2 e d)

/-- The query projection scaled by the binary constant `2⁻⁵`. -/
def qK (x : SX.Idx → EReal) (w : SW.Idx → EReal) : Feat :=
  fun b s e => proj x w b s e * Ideal.ofBits .f32 0x3D000000#32

/-- The query projection divided by the square root of `1024`. -/
def qR (x : SX.Idx → EReal) (w : SW.Idx → EReal) : Feat :=
  fun b s e => Ideal.div (proj x w b s e) (Ideal.sqrt (Ideal.ofBits .f32 0x44800000#32))

/-- Query `q` against key `k`, within batch `b`. -/
def scores (Q K : Feat) : Score := fun b q k => ∑ e : Fin 1024, Q b q e * K b k e

/-- The largest score of query `q`: a fold of `max` over the keys, from -∞. -/
def rowMax (S : Score) (b : Fin 4) (q : Fin 2048) : EReal :=
  (Finset.univ : Finset (Fin 2048)).fold max (Ideal.ofBits .f32 0xFF800000#32) (fun k => S b q k)

/-- The unnormalised softmax weight of key `k` for query `q`. -/
def weight (S : Score) : Score := fun b q k => Ideal.exp (S b q k - rowMax S b q)

/-- The softmax denominator of query `q`. -/
def denom (S : Score) (b : Fin 4) (q : Fin 2048) : EReal := ∑ k : Fin 2048, weight S b q k

/-- The output with the weighted sum of values divided once by the denominator. -/
def outK (S : Score) (V : Feat) : Feat :=
  fun b q e => Ideal.div (∑ k : Fin 2048, weight S b q k * V b k e) (denom S b q)

/-- The output with every weight normalised before the sum over the keys. -/
def outR (S : Score) (V : Feat) : Feat :=
  fun b q e => ∑ k : Fin 2048, Ideal.div (weight S b q k) (denom S b q) * V b k e

end Cert.Attn

end
-- ==== Proof.Flat.lean ====
/-
  The inner product the projection computes on the flattened activations: row `r` of a `[8192, 1024]` array
  against row `e` of a `[1024, 1024]` weight matrix.
-/
import proofs.«163229_j65481071408069_2_alg».proof.Proof.Spec

noncomputable section

namespace Cert.Attn

open Idealize.ShloMosaic Idealize.ShloMosaic.ValueIdx

/-- The shape of the flattened activations and of each flat projection. -/
abbrev SF : Shape := ⟨2, ![8192, 1024]⟩

/-- Row `r` of the flat array against row `e` of the weight matrix. -/
def inner (xf : SF.Idx → EReal) (w : SW.Idx → EReal) (r : Fin 8192) (e : Fin 1024) : EReal :=
  ∑ d : Fin 1024, xf (ix2 r d) * w (ix2 e d)

end Cert.Attn

end
-- ==== Proof.Compose.lean ====
/-
  The idealized kernel's result, index by index, from what the two launches leave.

  Taken as given here (they are proved beside this module): the projection launch leaves in its three output
  arrays `[8192, 1024]` the products of the flat activations with each weight matrix — the query product scaled
  by `2⁻⁵` —, and the attention launch leaves in its output array the attention output `outK` of the three arrays
  it reads.  Reading the attention launch's inputs back through the host's reshapes to the projection launch's
  outputs, and those back to the arguments, the result buffer holds `outK` of the scaled query projection, the key
  projection and the value projection of the arguments.
-/
import proofs.«163229_j65481071408069_2_alg».proof.Proof.GlueHost
import proofs.«163229_j65481071408069_2_alg».proof.Proof.KernelRun
import proofs.«163229_j65481071408069_2_alg».proof.Proof.Flat

noncomputable section

namespace Cert.KernelIdeal.Compose

open Cert.KernelIdeal Cert.KernelIdeal.Gen Cert.KernelIdeal.Glue Cert.Attn
open Idealize.ShloMosaic Idealize.ShloMosaic.TcCoe Idealize.SL.Sem Idealize.ShloMosaic.ValueIdx

/-- What the projection launch leaves, at any entry contents `V`: the three statements proved for it. -/
structure ProjectionLaunch : Prop where
  q : ∀ (V : (c : Dev nD) → (b : Ref sig .tc) → Buf (Elt Ideal) ((c : Thread nD τ).loc b)) (c : Dev nD) (r : Fin 8192) (e : Fin 1024),
    (dat0 (F := Ideal) V c).arrAt 4 cfg0.N (ix2 r e) = inner (V c main_v0) (V c main_v1) r e * Ideal.ofBits .f32 0x3D000000#32
  k : ∀ (V : (c : Dev nD) → (b : Ref sig .tc) → Buf (Elt Ideal) ((c : Thread nD τ).loc b)) (c : Dev nD) (r : Fin 8192) (e : Fin 1024),
    (dat0 (F := Ideal) V c).arrAt 5 cfg0.N (ix2 r e) = inner (V c main_v0) (V c main_v2) r e
  v : ∀ (V : (c : Dev nD) → (b : Ref sig .tc) → Buf (Elt Ideal) ((c : Thread nD τ).loc b)) (c : Dev nD) (r : Fin 8192) (e : Fin 1024),
    (dat0 (F := Ideal) V c).arrAt 6 cfg0.N (ix2 r e) = inner (V c main_v0) (V c main_v3) r e

/-- What the attention launch leaves, at any entry contents `V`. -/
def AttentionLaunch : Prop :=
  ∀ (V : (c : Dev nD) → (b : Ref sig .tc) → Buf (Elt Ideal) ((c : Thread nD τ).loc b)) (c : Dev nD) (b : Fin 4) (q : Fin 2048) (e : Fin 1024),
    (dat1 (F := Ideal) V c).arrAt 3 cfg1.N (ix3 b q e)
      = outK (scores (at3 (V c main_v5)) (at3 (V c main_v6))) (at3 (V c main_v7)) b q e

variable (m : (ℓ : Loc nD τ sig) → Buf (Elt Ideal) ℓ) (ρ : Dev nD → PrngReg)

/-- The argument buffers, as the functions the specification is written over. -/
abbrev argX (c : Dev nD) : SX.Idx → EReal := m ((c : Thread nD τ).loc main_arg0)
abbrev argWq (c : Dev nD) : SW.Idx → EReal := m ((c : Thread nD τ).loc main_arg3)
abbrev argWk (c : Dev nD) : SW.Idx → EReal := m ((c : Thread nD τ).loc main_arg4)
abbrev argWv (c : Dev nD) : SW.Idx → EReal := m ((c : Thread nD τ).loc main_arg5)

/-- The inner product the projection launch computes for flat row `rowOf b s` against row `e` of a weight matrix
    is the projection of the arguments at `(b, s, e)`. -/
theorem flat_inner (c : Dev nD) (w' w : SW.Idx → EReal) (hw : w' = w) (b : Fin 4) (s : Fin 2048) (e : Fin 1024) :
    inner (V1 m ρ c main_v0) w' (rowOf b s) e = proj (argX m c) w b s e := by
  subst hw
  unfold Cert.Attn.inner proj
  refine Finset.sum_congr rfl fun d _ => ?_
  exact congrArg (· * w' (ix2 e d)) (entry0_x_apply m ρ c b s d)

theorem entry1_q_eq (hP : ProjectionLaunch) (c : Dev nD) :
    at3 (V3 m ρ c main_v5) = qK (argX m c) (argWq m c) := by
  funext b s e
  show (V3 m ρ c main_v5 : S4x2048x1024.Idx → EReal) (ix3 b s e) = _
  rw [entry1_q, unflatten_apply, hP.q (V1 m ρ) c (rowOf b s) e]
  unfold qK
  exact congrArg (· * Ideal.ofBits .f32 0x3D000000#32) (flat_inner m ρ c _ _ (entry0_wq m ρ c) b s e)

theorem entry1_k_eq (hP : ProjectionLaunch) (c : Dev nD) :
    at3 (V3 m ρ c main_v6) = proj (argX m c) (argWk m c) := by
  funext b s e
  show (V3 m ρ c main_v6 : S4x2048x1024.Idx → EReal) (ix3 b s e) = _
  rw [entry1_k, unflatten_apply, hP.k (V1 m ρ) c (rowOf b s) e]
  exact flat_inner m ρ c _ _ (entry0_wk m ρ c) b s e

theorem entry1_v_eq (hP : ProjectionLaunch) (c : Dev nD) :
    at3 (V3 m ρ c main_v7) = proj (argX m c) (argWv m c) := by
  funext b s e
  show (V3 m ρ c main_v7 : S4x2048x1024.Idx → EReal) (ix3 b s e) = _
  rw [entry1_v, unflatten_apply, hP.v (V1 m ρ) c (rowOf b s) e]
  exact flat_inner m ρ c _ _ (entry0_wv m ρ c) b s e

/-- THE KERNEL'S VALUE: the result buffer at `(b, q, e)`. -/
theorem result_apply (hP : ProjectionLaunch) (hA : AttentionLaunch) (c : Dev nD) (b : Fin 4) (q : Fin 2048) (e : Fin 1024) :
    (W4 m ρ c (Proc.devRef .tc main_v8) : S4x2048x1024.Idx → EReal) (ix3 b q e)
      = outK (scores (qK (argX m c) (argWq m c)) (proj (argX m c) (argWk m c))) (proj (argX m c) (argWv m c)) b q e := by
  rw [NamedRun.result_arr, hA (V3 m ρ) c b q e, entry1_q_eq m ρ hP c, entry1_k_eq m ρ hP c, entry1_v_eq m ρ hP c]

end Cert.KernelIdeal.Compose

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.SpecLaws.lean ====
/-
  Why the two arrangements of attention agree.

  (1) The scale.  The word `0x44800000` denotes `1024`, whose square root is `32`; the word `0x3D000000` denotes
  `1/32`.  Dividing an extended real by the real number `32` is multiplying it by `1/32`, at the infinities too, so
  the two spellings of the scaled query projection are one function, with no condition on the inputs.

  (2) The division.  `(∑ k, P k * V k) / L = ∑ k, (P k / L) * V k` moves a factor across a sum, which on the
  extended reals needs every term finite.  When the scores and the values are real numbers this holds: the row
  maximum of finitely many (at least one) real numbers is real, so each exponent is real, each weight
  `exp (S - M)` is a positive real, the denominator `L` is a positive real — in particular not zero — and both
  sides are the real number `(∑ k, P k * V k) * L⁻¹`.

  (3) Real inputs give real projections and real scores: finite sums of products of real numbers.
-/
import proofs.«163229_j65481071408069_2_alg».proof.Proof.Spec
import proofs.«163229_j65481071408069_2_alg».proof.Proof.LibRealLaw

noncomputable section

namespace Cert.Attn

open Idealize.ShloMosaic Idealize.ShloMosaic.ValueIdx Cert.Scores

/-! ## The scale -/

theorem word_1024 : Ideal.ofBits .f32 0x44800000#32 = ((1024 : ℝ) : EReal) := by
  simp [Ideal.ofBits, Ideal.ieee, -EReal.coe_mul]; norm_num

theorem word_inv32 : Ideal.ofBits .f32 0x3D000000#32 = ((1 / 32 : ℝ) : EReal) := by
  simp [Ideal.ofBits, Ideal.ieee, -EReal.coe_mul]; norm_num

theorem word_neg_inf : Ideal.ofBits .f32 0xFF800000#32 = (⊥ : EReal) := by
  simp [Ideal.ofBits, Ideal.ieee]

theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- Multiplying by `2⁻⁵` is dividing by `√1024`, on every extended real. -/
theorem qK_eq_qR (x : SX.Idx → EReal) (w : SW.Idx → EReal) : qK x w = qR x w := by
  funext b s e
  unfold qK qR
  rw [word_1024, sqrt_1024, word_inv32, Ideal.div_coe (by norm_num : (32 : ℝ) ≠ 0)]

/-! ## Real numbers among the extended reals -/

theorem IsReal.max {x y : EReal} (hx : IsReal x) (hy : IsReal y) : IsReal (max x y) := by
  obtain ⟨a, rfl⟩ := hx
  obtain ⟨b, rfl⟩ := hy
  exact ⟨Max.max a b, (EReal.coe_strictMono.monotone).map_max.symm⟩

/-- The maximum, taken from -∞, of at least one real number is a real number. -/
theorem fold_max_isReal {ι : Type} (s : Finset ι) (hs : s.Nonempty) (f : ι → EReal) (hf : ∀ i, IsReal (f i)) :
    IsReal (s.fold Max.max (⊥ : EReal) f) := by
  classical
  induction hs using Finset.Nonempty.cons_induction with
  | singleton a =>
    rw [Finset.fold_singleton, max_bot_right]
    exact hf a
  | cons a s ha hs ih =>
    rw [Finset.fold_cons]
    exact IsReal.max (hf a) ih

variable (S : Score) (V : Feat)

theorem rowMax_isReal (hS : ∀ b q k, IsReal (S b q k)) (b : Fin 4) (q : Fin 2048) : IsReal (rowMax S b q) := by
  unfold rowMax
  rw [word_neg_inf]
  exact fold_max_isReal _ ⟨0, Finset.mem_univ _⟩ _ (fun k => hS b q k)

/-- Each weight is a positive real number. -/
theorem weight_pos (hS : ∀ b q k, IsReal (S b q k)) (b : Fin 4) (q k : Fin 2048) :
    ∃ p : ℝ, 0 < p ∧ weight S b q k = (p : EReal) := by
  obtain ⟨s, hs⟩ := hS b q k
  obtain ⟨mx, hm⟩ := rowMax_isReal S hS b q
  refine ⟨Real.exp (s - mx), Real.exp_pos _, ?_⟩
  unfold weight
  rw [hs, hm, ← EReal.coe_sub, Ideal.exp_coe]

/-- For real scores and real values, dividing the weighted sum once is normalising every weight. -/
theorem outK_eq_outR (hS : ∀ b q k, IsReal (S b q k)) (hV : ∀ b k e, IsReal (V b k e)) :
    outK S V = outR S V := by
  funext b q e
  choose p hp0 hp using fun k => weight_pos S hS b q k
  choose v hv using fun k => hV b k e
  have hden : denom S b q = ((∑ k : Fin 2048, p k : ℝ) : EReal) := by
    unfold denom
    rw [coe_sum]
    exact Finset.sum_congr rfl fun k _ => hp k
  have hpos : (0 : ℝ) < ∑ k : Fin 2048, p k :=
    Finset.sum_pos (fun k _ => hp0 k) ⟨0, Finset.mem_univ _⟩
  have hne : (∑ k : Fin 2048, p k : ℝ) ≠ 0 := ne_of_gt hpos
  unfold outK outR
  rw [hden, Ideal.div_coe hne]
  have hl : (∑ k : Fin 2048, weight S b q k * V b k e) = ((∑ k : Fin 2048, p k * v k : ℝ) : EReal) := by
    rw [coe_sum]
    exact Finset.sum_congr rfl fun k _ => by rw [hp k, hv k, EReal.coe_mul]
  have hr : ∀ k : Fin 2048, Ideal.div (weight S b q k) ((∑ k : Fin 2048, p k : ℝ) : EReal) * V b k e
      = ((p k * (1 / ∑ k : Fin 2048, p k) * v k : ℝ) : EReal) := fun k => by
    rw [Ideal.div_coe hne, hp k, hv k, EReal.coe_mul, EReal.coe_mul]
  rw [hl, Finset.sum_congr rfl fun k _ => hr k, ← coe_sum, ← EReal.coe_mul, Finset.sum_mul]
  exact congrArg _ (Finset.sum_congr rfl fun k _ => by ring)

/-! ## Real inputs -/

theorem proj_isReal (x : SX.Idx → EReal) (w : SW.Idx → EReal) (hx : ∀ i, IsReal (x i)) (hw : ∀ i, IsReal (w i))
    (b : Fin 4) (s : Fin 2048) (e : Fin 1024) : IsReal (proj x w b s e) :=
  IsReal.sum _ fun d => (hx _).mul (hw _)

theorem qK_isReal (x : SX.Idx → EReal) (w : SW.Idx → EReal) (hx : ∀ i, IsReal (x i)) (hw : ∀ i, IsReal (w i))
    (b : Fin 4) (s : Fin 2048) (e : Fin 1024) : IsReal (qK x w b s e) := by
  unfold qK
  rw [word_inv32]
  exact (proj_isReal x w hx hw b s e).mul (isReal_coe _)

theorem scores_isReal (Q K : Feat) (hQ : ∀ b s e, IsReal (Q b s e)) (hK : ∀ b s e, IsReal (K b s e))
    (b : Fin 4) (q k : Fin 2048) : IsReal (scores Q K b q k) :=
  IsReal.sum _ fun e => (hQ b q e).mul (hK b k e)

/-- THE BRIDGE: on real inputs the arrangement with the binary scale and one division is the arrangement with the
    square root and normalised weights. -/
theorem kernel_eq_reference (x : SX.Idx → EReal) (wq wk wv : SW.Idx → EReal)
    (hx : ∀ i, IsReal (x i)) (hq : ∀ i, IsReal (wq i)) (hk : ∀ i, IsReal (wk i)) (hv : ∀ i, IsReal (wv i)) :
    outK (scores (qK x wq) (proj x wk)) (proj x wv) = outR (scores (qR x wq) (proj x wk)) (proj x wv) := by
  rw [← qK_eq_qR]
  exact outK_eq_outR _ _ (scores_isReal _ _ (qK_isReal x wq hx hq) (proj_isReal x wk hx hk))
    (proj_isReal x wv hx hv)

end Cert.Attn

end
-- ==== Proof.Finite.lean ====
/-
  From the precondition to "every entry of the float inputs is a real number".

  The precondition is the conjunction, over the six input arrays, of "every entry a has |a| < +inf", computed as a
  one-bit scalar: each array is compared entrywise with the constant +inf, the one-bit answers are folded by "and"
  over all axes, and the six results are joined by "and".  Read over the extended reals, |x| is max x (-x) and the
  constant is the top element; max x (-x) is the top element exactly when x is one of the two infinities, so
  |x| < +inf says that x is a real number.  The scalar being 1 gives each fold being 1, a fold by "and" that is 1 met
  only ones, and a comparison that answered 1 holds.
-/
import proofs.«163229_j65481071408069_2_alg».proof.Defs
import proofs.«163229_j65481071408069_2_alg».proof.Proof.LibRealLaw
import Idealize.ShloMosaic.Lib.ReduceAll
import Idealize.ShloMosaic.Lib.ValueIdx
import Idealize.ShloMosaic.PureOps.Ideal

noncomputable section

namespace Cert.Finite

open Idealize.ShloMosaic Idealize.SL.Sem

/-- The scalar shape has one index. -/
instance : Subsingleton Cert.Pre_finite_inputs.S_.Idx := ⟨fun a b => funext fun d => d.elim0⟩

/-- A one-bit word made from a truth value is 1 exactly when the value is true. -/
theorem ofBool_eq_one (b : Bool) : BitVec.ofBool b = 1#1 ↔ b = true := by cases b <;> decide

/-- The bit pattern 0x7F800000 denotes +inf. -/
theorem inf_eq_top : Ideal.ofBits .f32 0x7F800000#32 = (⊤ : EReal) := by
  simp [Ideal.ofBits, Ideal.ieee]

/-- An extended real whose absolute value max x (-x) is below +inf is a real number: at either infinity the
    absolute value is the top element. -/
theorem isReal_of_abs_lt (x : EReal)
    (h : Ideal.cmp .olt (max x (-x)) (Ideal.ofBits .f32 0x7F800000#32) = 1#1) : Cert.Scores.IsReal x := by
  rw [inf_eq_top] at h
  have h' : max x (-x) < ⊤ := by
    unfold Ideal.cmp at h
    exact of_decide_eq_true ((ofBool_eq_one _).1 h)
  induction x using EReal.rec with
  | bot => simp at h'
  | top => simp at h'
  | coe r => exact ⟨r, rfl⟩

/-- THE PRECONDITION DECODED.  If the printed predicate answers 1 on six arrays, every entry of the activations and
    of the three weight matrices is a real number (the two unused vectors' conjuncts are dropped). -/
theorem real_of_fn [Cert.Pre_finite_inputs.Facts]
    (a0 : FVec Ideal Cert.Pre_finite_inputs.S4x2048x1024 .f32)
    (a1 a2 : FVec Ideal Cert.Pre_finite_inputs.S1024 .f32)
    (a3 a4 a5 : FVec Ideal Cert.Pre_finite_inputs.S1024x1024 .f32)
    (h : Cert.Pre_finite_inputs.fn (F := Ideal) a0 a1 a2 a3 a4 a5 = fun _ => 1#1) :
    (∀ i, Cert.Scores.IsReal (a0 i)) ∧ (∀ i, Cert.Scores.IsReal (a3 i)) ∧ (∀ i, Cert.Scores.IsReal (a4 i))
      ∧ (∀ i, Cert.Scores.IsReal (a5 i)) := by
  have e := congrFun h ValueIdx.ix0
  dsimp only [Cert.Pre_finite_inputs.fn, Cert.Pre_finite_inputs.fn_part1] at e
  simp only [andi, IntOp.andi_eq_one] at e
  obtain ⟨⟨⟨⟨⟨h0, -⟩, -⟩, h3⟩, h4⟩, h5⟩ := e
  refine ⟨fun i => ?_, fun i => ?_, fun i => ?_, fun i => ?_⟩
  · exact isReal_of_abs_lt _ (Host.reduce_andi_all _ _ _ _ _ h0 i)
  · exact isReal_of_abs_lt _ (Host.reduce_andi_all _ _ _ _ _ h3 i)
  · exact isReal_of_abs_lt _ (Host.reduce_andi_all _ _ _ _ _ h4 i)
  · exact isReal_of_abs_lt _ (Host.reduce_andi_all _ _ _ _ _ h5 i)

/-- The form the assembly uses: under the idealized kernel's precondition, on every device, every entry of the
    activations and of the three weight matrices in the launch memory is a real number. -/
theorem real_args (hF : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hF) m) (c : Dev Cert.KernelIdeal.nD) :
    (∀ i, Cert.Scores.IsReal (m ((c.tc : Thread Cert.KernelIdeal.nD Cert.KernelIdeal.τ).loc Cert.KernelIdeal.main_arg0) i))
      ∧ (∀ i, Cert.Scores.IsReal (m ((c.tc : Thread Cert.KernelIdeal.nD Cert.KernelIdeal.τ).loc Cert.KernelIdeal.main_arg3) i))
      ∧ (∀ i, Cert.Scores.IsReal (m ((c.tc : Thread Cert.KernelIdeal.nD Cert.KernelIdeal.τ).loc Cert.KernelIdeal.main_arg4) i))
      ∧ (∀ i, Cert.Scores.IsReal (m ((c.tc : Thread Cert.KernelIdeal.nD Cert.KernelIdeal.τ).loc Cert.KernelIdeal.main_arg5) i)) :=
  @real_of_fn hF _ _ _ _ _ _ (h c)

end Cert.Finite

end
-- ==== Proof.Assemble.lean ====
/-
  The five claims, from the pieces.

  The three frames are the generated ones (the reference's is its generated run with the result dropped).  The
  idealization rewrote no operation, so there is nothing to preserve.  For the value claim both programs are run
  from memories that agree on the arguments: the kernel's result buffer holds the attention output in the
  arrangement `outK` with the binary scale, the reference's holds the arrangement `outR` with the square root, both
  of the same argument arrays; the precondition makes every argument entry a real number, and on real inputs the
  two arrangements are one function.
-/
import proofs.«163229_j65481071408069_2_alg».proof.Defs
import proofs.«163229_j65481071408069_2_alg».proof.Proof.Gen.Kernel.Frame
import proofs.«163229_j65481071408069_2_alg».proof.Proof.Gen.KernelIdeal.Frame
import proofs.«163229_j65481071408069_2_alg».proof.Proof.Gen.ReferenceIdeal.Read
import proofs.«163229_j65481071408069_2_alg».proof.Proof.Gen.Pre_finite_inputs
import proofs.«163229_j65481071408069_2_alg».proof.Proof.Compose
import proofs.«163229_j65481071408069_2_alg».proof.Proof.SpecLaws
import proofs.«163229_j65481071408069_2_alg».proof.Proof.Finite

noncomputable section

namespace Cert.Proof.Assemble

open Idealize.ShloMosaic Idealize.ShloMosaic.TcCoe Idealize.SL.Sem Idealize.ShloMosaic.ValueIdx Cert.Attn

/-- The reference's last stage is the arrangement `outR` of its arguments (proved beside this module). -/
def ReferenceValue : Prop :=
  ∀ (x0 : (⟨Cert.ReferenceIdeal.S4x2048x1024, .f32⟩ : BufTy).Contents (Elt Ideal))
    (x3 x4 x5 : (⟨Cert.ReferenceIdeal.S1024x1024, .f32⟩ : BufTy).Contents (Elt Ideal)) (b : Fin 4) (q : Fin 2048) (e : Fin 1024),
    Cert.ReferenceIdeal.Read.val_main_v18 (F := Ideal) x0 x3 x4 x5 (ix3 b q e)
      = outR (scores (qR x0 x3) (proj x0 x4)) (proj x0 x5) b q e

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic (hP : Cert.KernelIdeal.Compose.ProjectionLaunch) (hA : Cert.KernelIdeal.Compose.AttentionLaunch)
    (hR : ReferenceValue) : Cert.algebraic_KernelIdeal_ReferenceIdeal := by
  intro m ρ m' ρ' hpre hagree
  refine ⟨fun c => Cert.KernelIdeal.Gen.W4 m ρ c (Proc.devRef .tc Cert.KernelIdeal.main_v8),
    Cert.KernelIdeal.NamedRun.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.2.2.1, (hagree c).2.2.2.2.1, (hagree c).2.2.2.2.2]
  funext i
  obtain ⟨b, q, e, rfl⟩ : ∃ (b : Fin 4) (q : Fin 2048) (e : Fin 1024), i = ix3 b q e := ⟨i 0, i 1, i 2, eq_ix3 i⟩
  obtain ⟨h0, h3, h4, h5⟩ := Cert.Finite.real_args inferInstance m hpre c
  refine (hR _ _ _ _ b q e).trans ?_
  refine Eq.trans ?_ (Cert.KernelIdeal.Compose.result_apply m ρ hP hA c b q e).symm
  exact (congrFun (congrFun (congrFun (kernel_eq_reference _ _ _ _ h0 h3 h4 h5) b) q) e).symm

end Cert.Proof.Assemble

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.Region0.lean ====
/-
  What the first pallas_call — the query / key / value projection over a grid of 16 row blocks of 512 rows —
  leaves in its three output arrays, as whole-array functions of the arrays it finds when the region is entered:
  entry (r, e) of each output is the sum over the input feature d of x (r, d) times the weight at (e, d) (the
  weight is stored with the output feature on its first axis, so this is x · wᵀ), and the query's is that sum
  times the constant 1/32. Over the extended reals the format changes are the identity, so the sums are exact.
-/
import proofs.«163229_j65481071408069_2_alg».proof.Proof.Gen.KernelIdeal.Frame
import proofs.«163229_j65481071408069_2_alg».proof.Proof.LibDotNT
import proofs.«163229_j65481071408069_2_alg».proof.Proof.Flat
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The offset of the body's one load and one store per buffer: the origin. -/
theorem hz : (![0, 0] : Fin 2 → Nat) = fun _ => 0 := funext fun a => by fin_cases a <;> rfl

/-! ## The body's arithmetic at one entry of a block -/

/-- Over the extended reals the narrowing of the input block is the identity. -/
theorem pay1_apply (x0 : Vec Ideal S512x1024 .f32) (i : S512x1024.Idx) : k0_pay1 (F := Ideal) x0 i = x0 i := by
  unfold k0_pay1
  show (shapeCast S512x1024 x0 shapeCasts_S512x1024_S512x1024) i = x0 i
  rw [shapeCast_self]

/-- The product of the [512, 1024] block with a [1024, 1024] weight, both contracted on their second axis and
    accumulated into the zero splat, at entry `(p, e)`: the sum over the input feature. -/
theorem proj_apply (x0 : Vec Ideal S512x1024 .f32) (w : Vec Ideal S1024x1024 .bf16) (p : Fin 512) (e : Fin 1024) :
    matmul (F := Ideal) dot_S512x1024_S1024x1024_S512x1024_1_1_0_0_n_n none (k0_pay1 x0)
        (shapeCast S1024x1024 w shapeCasts_S1024x1024_S1024x1024 : FVec Ideal S1024x1024 .bf16)
        (constant S512x1024 .f32 0x00000000#32) (ix2 p e)
      = ∑ d : Fin 1024, (x0 (ix2 p d) : EReal) * (w (ix2 e d) : EReal) := by
  rw [shapeCast_self]
  refine (Cert.DotNT.matmul_zero_apply (M := 512) (K := 1024) (N := 1024)
    dot_S512x1024_S1024x1024_S512x1024_1_1_0_0_n_n rfl none (k0_pay1 x0) (w : FVec Ideal S1024x1024 .bf16) p e).trans ?_
  refine Finset.sum_congr rfl fun d _ => ?_
  rw [pay1_apply]

/-- The query's payload at `(p, e)`: the projection sum times the scale constant. -/
theorem pay_q (x0 : Vec Ideal S512x1024 .f32) (w : Vec Ideal S1024x1024 .bf16) (p : Fin 512) (e : Fin 1024) :
    k0_pay2 (F := Ideal) x0 w (ix2 p e)
      = (∑ d : Fin 1024, (x0 (ix2 p d) : EReal) * (w (ix2 e d) : EReal)) * Ideal.ofBits .f32 0x3D000000#32 := by
  unfold k0_pay2
  show matmul (F := Ideal) dot_S512x1024_S1024x1024_S512x1024_1_1_0_0_n_n none (k0_pay1 x0)
        (shapeCast S1024x1024 w shapeCasts_S1024x1024_S1024x1024 : FVec Ideal S1024x1024 .bf16)
        (constant S512x1024 .f32 0x00000000#32) (ix2 p e)
      * Ideal.ofBits .f32 0x3D000000#32 = _
  rw [proj_apply]

/-- The key's payload at `(p, e)`: the projection sum. -/
theorem pay_k (x0 : Vec Ideal S512x1024 .f32) (w : Vec Ideal S1024x1024 .bf16) (p : Fin 512) (e : Fin 1024) :
    k0_pay3 (F := Ideal) x0 w (ix2 p e) = ∑ d : Fin 1024, (x0 (ix2 p d) : EReal) * (w (ix2 e d) : EReal) := by
  unfold k0_pay3
  exact proj_apply x0 w p e

/-- The value's payload at `(p, e)`: the projection sum. -/
theorem pay_v (x0 : Vec Ideal S512x1024 .f32) (w : Vec Ideal S1024x1024 .bf16) (p : Fin 512) (e : Fin 1024) :
    k0_pay4 (F := Ideal) x0 w (ix2 p e) = ∑ d : Fin 1024, (x0 (ix2 p d) : EReal) * (w (ix2 e d) : EReal) := by
  unfold k0_pay4
  exact proj_apply x0 w p e

/-! ## From blocks to the arrays -/

variable (V : (c : Dev nD) → (b : Ref sig .tc) → Buf (Elt Ideal) ((c : Thread nD τ).loc b))

/-- The printed index maps, decided over the 16 grid points: the row-block windows (the input rows and the three
    outputs) sit at block (t, 0), the three weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The input block at point `t` holds rows `512 t … 512 t + 511` of the input array. -/
theorem iblk_x (c : Dev nD) (t : Fin cfg0.N) (p : Fin 512) (d : Fin 1024) (k : S8192x1024.Idx)
    (hk0 : (k 0).val = 512 * t.val + p.val) (hk1 : (k 1).val = d.val) :
    (iblk0 V c 0 t : Vec Ideal S512x1024 .f32) (ix2 p d) = (V c main_v0 : S8192x1024.Idx → EReal) k := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * p.val = (k 0).val; rw [e0, hk0]; omega
  | ⟨1, _⟩ => show win0_0.index t (1 : Fin 2) * 1024 + 1 * d.val = (k 1).val; rw [e1, hk1]; omega

/-! ## The query array -/

/-- The first weight's block at every point is the whole weight. -/
theorem iblk_w1 (c : Dev nD) (t : Fin cfg0.N) (e : Fin 1024) (d : Fin 1024) :
    (iblk0 V c 1 t : Vec Ideal S1024x1024 .bf16) (ix2 e d) = (V c main_v1 : S1024x1024.Idx → EReal) (ix2 e d) := by
  obtain ⟨-, -, e0, e1, -⟩ := idx_facts t
  unfold iblk0
  rw [View.read_apply]
  show V c main_v1 _ = V c main_v1 _
  congr 1
  funext a
  apply Fin.ext
  match a with
  | ⟨0, _⟩ => show win0_1.index t (0 : Fin 2) * 1024 + 1 * e.val = e.val; rw [e0]; omega
  | ⟨1, _⟩ => show win0_1.index t (1 : Fin 2) * 1024 + 1 * d.val = d.val; rw [e1]; omega

/-- The query array: each row of the input projected by the first weight, times the scale constant. -/
def arrQ (c : Dev nD) : S8192x1024.Idx → EReal := fun i =>
  Cert.Attn.inner (V c main_v0) (V c main_v1) ⟨(i 0).val, idx2_lt0 i⟩ ⟨(i 1).val, idx2_lt1 i⟩ * Ideal.ofBits .f32 0x3D000000#32

/-- What point `t` writes back to the query array is block `t` of `arrQ`. -/
theorem flushed_q (c : Dev nD) (t : Fin cfg0.N) :
    (dat0 V c).flushed 4 t = ((cfg0.win 4).blk t).view.read (Elt Ideal) (arrQ V c) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  obtain ⟨-, -, -, -, -, -, -, -, e0, e1, -⟩ := idx_facts t
  funext j
  obtain ⟨p, e, rfl⟩ : ∃ (p : Fin 512) (e : Fin 1024), j = ix2 p e := ⟨j 0, j 1, eq_ix2 j⟩
  show k0_pay2 (F := Ideal) (iblk0 V c 0 t) (iblk0 V c 1 t) (ix2 p e) = arrQ V c (((cfg0.win 4).blk t).view.emb (ix2 p e))
  refine (pay_q (iblk0 V c 0 t) (iblk0 V c 1 t) p e).trans ?_
  unfold arrQ Cert.Attn.inner
  congr 1
  refine Finset.sum_congr rfl fun d _ => ?_
  congr 1
  · exact iblk_x V c t p d _
      (show win0_4.index t (0 : Fin 2) * 512 + 1 * p.val = 512 * t.val + p.val by rw [e0]; omega) rfl
  · refine (iblk_w1 V c t e d).trans ?_
    congr 1
    funext a
    apply Fin.ext
    match a with
    | ⟨0, _⟩ => show e.val = win0_4.index t (1 : Fin 2) * 1024 + 1 * e.val; rw [e1]; omega
    | ⟨1, _⟩ => rfl

/-- An index of an output array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Every index of the query array is in the block of the point its row falls in. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : grid0.N = 16 := N_0
  refine ⟨⟨(i 0).val / 512, by show _ < grid0.N; omega⟩, flush0_4 _, ?_⟩
  obtain ⟨-, -, -, -, -, -, -, -, e0, e1, -⟩ := idx_facts ⟨(i 0).val / 512, by show _ < grid0.N; omega⟩
  rw [mem_blk4]
  intro a
  match a with
  | ⟨0, _⟩ => show win0_4.index _ (0 : Fin 2) * 512 ≤ (i 0).val ∧ (i 0).val < win0_4.index _ (0 : Fin 2) * 512 + 512; rw [e0]; show (i 0).val / 512 * 512 ≤ (i 0).val ∧ (i 0).val < (i 0).val / 512 * 512 + 512; omega
  | ⟨1, _⟩ => show win0_4.index _ (1 : Fin 2) * 1024 ≤ (i 1).val ∧ (i 1).val < win0_4.index _ (1 : Fin 2) * 1024 + 1024; rw [e1]; omega

/-- The query array after the region: row `r`, feature `e` is the projection sum times the scale constant. -/
theorem arr_q (c : Dev nD) (r : Fin 8192) (e : Fin 1024) :
    (dat0 (F := Ideal) V c).arrAt 4 cfg0.N (ix2 r e)
      = Cert.Attn.inner (V c main_v0) (V c main_v1) r e * Ideal.ofBits .f32 0x3D000000#32 :=
  congrFun ((dat0 V c).arrAt_eq_of_cover 4 (arrQ V c) (fun t _ => flushed_q V c t) cover4) (ix2 r e)

/-! ## The key array -/

/-- The second weight's block at every point is the whole weight. -/
theorem iblk_w2 (c : Dev nD) (t : Fin cfg0.N) (e : Fin 1024) (d : Fin 1024) :
    (iblk0 V c 2 t : Vec Ideal S1024x1024 .bf16) (ix2 e d) = (V c main_v2 : S1024x1024.Idx → EReal) (ix2 e d) := by
  obtain ⟨-, -, -, -, e0, e1, -⟩ := idx_facts t
  unfold iblk0
  rw [View.read_apply]
  show V c main_v2 _ = V c main_v2 _
  congr 1
  funext a
  apply Fin.ext
  match a with
  | ⟨0, _⟩ => show win0_2.index t (0 : Fin 2) * 1024 + 1 * e.val = e.val; rw [e0]; omega
  | ⟨1, _⟩ => show win0_2.index t (1 : Fin 2) * 1024 + 1 * d.val = d.val; rw [e1]; omega

/-- The key array: each row of the input projected by the second weight. -/
def arrK (c : Dev nD) : S8192x1024.Idx → EReal := fun i =>
  Cert.Attn.inner (V c main_v0) (V c main_v2) ⟨(i 0).val, idx2_lt0 i⟩ ⟨(i 1).val, idx2_lt1 i⟩

/-- What point `t` writes back to the key array is block `t` of `arrK`. -/
theorem flushed_k (c : Dev nD) (t : Fin cfg0.N) :
    (dat0 V c).flushed 5 t = ((cfg0.win 5).blk t).view.read (Elt Ideal) (arrK V c) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  obtain ⟨-, -, -, -, -, -, -, -, -, -, e0, e1, -⟩ := idx_facts t
  funext j
  obtain ⟨p, e, rfl⟩ : ∃ (p : Fin 512) (e : Fin 1024), j = ix2 p e := ⟨j 0, j 1, eq_ix2 j⟩
  show k0_pay3 (F := Ideal) (iblk0 V c 0 t) (iblk0 V c 2 t) (ix2 p e) = arrK V c (((cfg0.win 5).blk t).view.emb (ix2 p e))
  refine (pay_k (iblk0 V c 0 t) (iblk0 V c 2 t) p e).trans ?_
  unfold arrK Cert.Attn.inner
  refine Finset.sum_congr rfl fun d _ => ?_
  congr 1
  · exact iblk_x V c t p d _
      (show win0_5.index t (0 : Fin 2) * 512 + 1 * p.val = 512 * t.val + p.val by rw [e0]; omega) rfl
  · refine (iblk_w2 V c t e d).trans ?_
    congr 1
    funext a
    apply Fin.ext
    match a with
    | ⟨0, _⟩ => show e.val = win0_5.index t (1 : Fin 2) * 1024 + 1 * e.val; rw [e1]; omega
    | ⟨1, _⟩ => rfl

/-- An index of the key array is in point `t`'s block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Every index of the key array is in the block of the point its row falls in. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 16 := N_0
  refine ⟨⟨(i 0).val / 512, by show _ < grid0.N; omega⟩, flush0_5 _, ?_⟩
  obtain ⟨-, -, -, -, -, -, -, -, -, -, e0, e1, -⟩ := idx_facts ⟨(i 0).val / 512, by show _ < grid0.N; omega⟩
  rw [mem_blk5]
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e1]; omega

/-- The key array after the region: row `r`, feature `e` is the projection sum. -/
theorem arr_k (c : Dev nD) (r : Fin 8192) (e : Fin 1024) :
    (dat0 (F := Ideal) V c).arrAt 5 cfg0.N (ix2 r e) = Cert.Attn.inner (V c main_v0) (V c main_v2) r e :=
  congrFun ((dat0 V c).arrAt_eq_of_cover 5 (arrK V c) (fun t _ => flushed_k V c t) cover5) (ix2 r e)

/-! ## The value array -/

/-- The third weight's block at every point is the whole weight. -/
theorem iblk_w3 (c : Dev nD) (t : Fin cfg0.N) (e : Fin 1024) (d : Fin 1024) :
    (iblk0 V c 3 t : Vec Ideal S1024x1024 .bf16) (ix2 e d) = (V c main_v3 : S1024x1024.Idx → EReal) (ix2 e d) := by
  obtain ⟨-, -, -, -, -, -, e0, e1, -⟩ := idx_facts t
  unfold iblk0
  rw [View.read_apply]
  show V c main_v3 _ = V c main_v3 _
  congr 1
  funext a
  apply Fin.ext
  match a with
  | ⟨0, _⟩ => show win0_3.index t (0 : Fin 2) * 1024 + 1 * e.val = e.val; rw [e0]; omega
  | ⟨1, _⟩ => show win0_3.index t (1 : Fin 2) * 1024 + 1 * d.val = d.val; rw [e1]; omega

/-- The value array: each row of the input projected by the third weight. -/
def arrV (c : Dev nD) : S8192x1024.Idx → EReal := fun i =>
  Cert.Attn.inner (V c main_v0) (V c main_v3) ⟨(i 0).val, idx2_lt0 i⟩ ⟨(i 1).val, idx2_lt1 i⟩

/-- What point `t` writes back to the value array is block `t` of `arrV`. -/
theorem flushed_v (c : Dev nD) (t : Fin cfg0.N) :
    (dat0 V c).flushed 6 t = ((cfg0.win 6).blk t).view.read (Elt Ideal) (arrV V c) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  obtain ⟨-, -, -, -, -, -, -, -, -, -, -, -, e0, e1⟩ := idx_facts t
  funext j
  obtain ⟨p, e, rfl⟩ : ∃ (p : Fin 512) (e : Fin 1024), j = ix2 p e := ⟨j 0, j 1, eq_ix2 j⟩
  show k0_pay4 (F := Ideal) (iblk0 V c 0 t) (iblk0 V c 3 t) (ix2 p e) = arrV V c (((cfg0.win 6).blk t).view.emb (ix2 p e))
  refine (pay_v (iblk0 V c 0 t) (iblk0 V c 3 t) p e).trans ?_
  unfold arrV Cert.Attn.inner
  refine Finset.sum_congr rfl fun d _ => ?_
  congr 1
  · exact iblk_x V c t p d _
      (show win0_6.index t (0 : Fin 2) * 512 + 1 * p.val = 512 * t.val + p.val by rw [e0]; omega) rfl
  · refine (iblk_w3 V c t e d).trans ?_
    congr 1
    funext a
    apply Fin.ext
    match a with
    | ⟨0, _⟩ => show e.val = win0_6.index t (1 : Fin 2) * 1024 + 1 * e.val; rw [e1]; omega
    | ⟨1, _⟩ => rfl

/-- An index of the value array is in point `t`'s block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_2).slice (win0_6.rect t)).set ↔ _
  rw [View.set_slice_whole, Rect.mem_set_unit]
  exact Iff.rfl

/-- Every index of the value array is in the block of the point its row falls in. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : grid0.N = 16 := N_0
  refine ⟨⟨(i 0).val / 512, by show _ < grid0.N; omega⟩, flush0_6 _, ?_⟩
  obtain ⟨-, -, -, -, -, -, -, -, -, -, -, -, e0, e1⟩ := idx_facts ⟨(i 0).val / 512, by show _ < grid0.N; omega⟩
  rw [mem_blk6]
  intro a
  match a with
  | ⟨0, _⟩ => show win0_6.index _ (0 : Fin 2) * 512 ≤ (i 0).val ∧ (i 0).val < win0_6.index _ (0 : Fin 2) * 512 + 512; rw [e0]; show (i 0).val / 512 * 512 ≤ (i 0).val ∧ (i 0).val < (i 0).val / 512 * 512 + 512; omega
  | ⟨1, _⟩ => show win0_6.index _ (1 : Fin 2) * 1024 ≤ (i 1).val ∧ (i 1).val < win0_6.index _ (1 : Fin 2) * 1024 + 1024; rw [e1]; omega

/-- The value array after the region: row `r`, feature `e` is the projection sum. -/
theorem arr_v (c : Dev nD) (r : Fin 8192) (e : Fin 1024) :
    (dat0 (F := Ideal) V c).arrAt 6 cfg0.N (ix2 r e) = Cert.Attn.inner (V c main_v0) (V c main_v3) r e :=
  congrFun ((dat0 V c).arrAt_eq_of_cover 6 (arrV V c) (fun t _ => flushed_v V c t) cover6) (ix2 r e)

end Cert.KernelIdeal.Region0

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Region1Body.lean ====
/-
  The attention body's stored value at an index, over the extended reals.

  One grid point of the attention kernel holds a block of 512 query rows, and the whole 2048 rows of keys and of
  values of one batch entry, each with 1024 features.  It forms the 512 × 2048 scores (every query row against every
  key row), subtracts each row's maximum, exponentiates, sums each row, multiplies the exponentials into the values
  and divides each output row by its row's sum.  This module reads that result at an index (i, e) as the closed
  expression

      (∑ k, exp (s i k - max_k' s i k') * v k e) / (∑ k, exp (s i k - max_k' s i k'))     with  s i k = ∑ e', q i e' * k k e'

  in the same shape as the specification's output with the division applied once to the weighted sum.
-/
import proofs.«163229_j65481071408069_2_alg».proof.Proof.Gen.KernelIdeal.Skeleton
import proofs.«163229_j65481071408069_2_alg».proof.Proof.LibColumn
import proofs.«163229_j65481071408069_2_alg».proof.Proof.LibLaneSum
import proofs.«163229_j65481071408069_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.ValueIdx

/-! ## The block's mathematics -/

/-- Query row `i` of the block against key row `k`. -/
def bScores (q : S1x512x1024.Idx → EReal) (kk : S1x2048x1024.Idx → EReal) : Fin 512 → Fin 2048 → EReal :=
  fun i k => ∑ e : Fin 1024, q (ix3 (0 : Fin 1) i e) * kk (ix3 (0 : Fin 1) k e)

/-- The largest score of query row `i`: a fold of `max` over the keys, from -∞. -/
def bMax (s : Fin 512 → Fin 2048 → EReal) (i : Fin 512) : EReal :=
  (Finset.univ : Finset (Fin 2048)).fold max (Ideal.ofBits .f32 0xFF800000#32) (fun k => s i k)

/-- The unnormalised softmax weight of key `k` for query row `i`. -/
def bWeight (s : Fin 512 → Fin 2048 → EReal) : Fin 512 → Fin 2048 → EReal :=
  fun i k => Ideal.exp (s i k - bMax s i)

/-- The softmax denominator of query row `i`. -/
def bDenom (s : Fin 512 → Fin 2048 → EReal) (i : Fin 512) : EReal := ∑ k : Fin 2048, bWeight s i k

/-- The block's output: the weighted sum of the value rows divided once by the denominator. -/
def bOut (s : Fin 512 → Fin 2048 → EReal) (v : S1x2048x1024.Idx → EReal) : Fin 512 → Fin 1024 → EReal :=
  fun i e => Ideal.div (∑ k : Fin 2048, bWeight s i k * v (ix3 (0 : Fin 1) k e)) (bDenom s i)

/-! ## The product of the queries with the transposed keys -/

/-- The left operand's row is the result's row. -/
theorem qk_lhs0 (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
/-- The left operand's column is the contraction coordinate. -/
theorem qk_lhs1 (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
/-- The right operand's row is the result's column. -/
theorem qk_rhs0 (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
/-- The right operand's column is the contraction coordinate. -/
theorem qk_rhs1 (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

/-- Both operands of the score product are contracted on their second axis: at `(i, k)` it is the inner product
    of row `i` of the left operand with row `k` of the right one. -/
theorem qk_apply (l : FVec Ideal S512x1024 .bf16) (r : FVec Ideal S2048x1024 .bf16) (i : Fin 512) (k : Fin 2048) :
    FloatOps.matmul dot_S512x1024_S2048x1024_S512x2048_1_1_0_0_n_n none l r (constant (F := Ideal) S512x2048 .f32 0x00000000#32) (ix2 i k)
      = ∑ e : Fin 1024, l (ix2 i e) * r (ix2 k e) := by
  rw [Ideal.matmul_constant_zero_apply,
    ← Equiv.sum_comp (contrEquiv1 dot_S512x1024_S2048x1024_S512x2048_1_1_0_0_n_n 1024 rfl rfl).symm]
  refine Finset.sum_congr rfl fun e _ => ?_
  have he := contrEquiv1_symm_val dot_S512x1024_S2048x1024_S512x2048_1_1_0_0_n_n 1024 rfl rfl e
  have el : dot_S512x1024_S2048x1024_S512x2048_1_1_0_0_n_n.lhsIdx (ix2 i k)
      ((contrEquiv1 dot_S512x1024_S2048x1024_S512x2048_1_1_0_0_n_n 1024 rfl rfl).symm e) = ix2 i e :=
    funext fun a => Fin.ext (by
      match a with
      | ⟨0, _⟩ => exact qk_lhs0 _ _
      | ⟨1, _⟩ => exact (qk_lhs1 _ _).trans he)
  have er : dot_S512x1024_S2048x1024_S512x2048_1_1_0_0_n_n.rhsIdx (ix2 i k)
      ((contrEquiv1 dot_S512x1024_S2048x1024_S512x2048_1_1_0_0_n_n 1024 rfl rfl).symm e) = ix2 k e :=
    funext fun a => Fin.ext (by
      match a with
      | ⟨0, _⟩ => exact qk_rhs0 _ _
      | ⟨1, _⟩ => exact (qk_rhs1 _ _).trans he)
  rw [el, er]

/-! ## The body's intermediate values -/

section Payload

variable (x0 : Vec Ideal S1x512x1024 .bf16) (x1 x2 : Vec Ideal S1x2048x1024 .bf16)

/-- The 512 × 2048 scores as the body forms them. -/
def vScores : FVec Ideal S512x2048 .f32 :=
  matmul dot_S512x1024_S2048x1024_S512x2048_1_1_0_0_n_n none
    (shapeCast S512x1024 x0 shapeCasts_S1x512x1024_S512x1024 : FVec Ideal S512x1024 .bf16)
    (shapeCast S2048x1024 x1 shapeCasts_S1x2048x1024_S2048x1024 : FVec Ideal S2048x1024 .bf16)
    (constant S512x2048 .f32 0x00000000#32)

/-- Each row's maximum as the body forms it. -/
def vMax : FVec Ideal S512 .f32 :=
  multiReduction .maximumf [1] S512 (vScores x0 x1) 0xFF800000#32 reduces_S512x2048_S512 (.inl rfl) rfl

/-- The exponentials of the scores less their row's maximum, as the body forms them. -/
def vWeight : FVec Ideal S512x2048 .f32 :=
  exp (subf (vScores x0 x1)
    (broadcastTo S512x2048 (shapeCast S512x1 (vMax x0 x1) shapeCasts_S512_S512x1) broadcasts_S512x1_S512x2048))

/-- Each row's sum of exponentials as the body forms it. -/
def vDenom : FVec Ideal S512 .f32 :=
  multiReduction .add [1] S512 (vWeight x0 x1) 0x00000000#32 reduces_S512x2048_S512 (.inl rfl) rfl

/-- The stored value is the weighted sum of the value rows divided by the row sums, cast back to the block's shape. -/
theorem pay_eq : k1_pay1 (F := Ideal) x0 x1 x2
    = shapeCast S1x512x1024
        (divf
          (matmul dot_S512x2048_S2048x1024_S512x1024_1_0_0_1_n_n none (truncf .bf16 (vWeight x0 x1) bitsLt_bf16_f32)
            (shapeCast S2048x1024 x2 shapeCasts_S1x2048x1024_S2048x1024 : FVec Ideal S2048x1024 .bf16) (constant S512x1024 .f32 0x00000000#32))
          (broadcastTo S512x1024 (shapeCast S512x1 (vDenom x0 x1) shapeCasts_S512_S512x1) broadcasts_S512x1_S512x1024))
        shapeCasts_S512x1024_S1x512x1024 := rfl

/-- The scores at `(i, k)`. -/
theorem vScores_apply (i : Fin 512) (k : Fin 2048) : vScores x0 x1 (ix2 i k) = bScores x0 x1 i k := by
  unfold vScores bScores
  refine (qk_apply _ _ i k).trans ?_
  refine Finset.sum_congr rfl fun e _ => ?_
  rw [shapeCast_1ab_ab_apply, shapeCast_1ab_ab_apply]

/-- The row maximum at `i`. -/
theorem vMax_apply (i : Fin 512) : vMax x0 x1 (ix1 i) = bMax (bScores x0 x1) i := by
  unfold vMax bMax
  refine (Ideal.multiReduction_maximumf_single (vScores x0 x1) 0xFF800000#32 reduces_S512x2048_S512 (.inl rfl) rfl (ix1 i)).trans ?_
  refine congrArg (fun f => (Finset.univ : Finset (Fin 2048)).fold max (Ideal.ofBits .f32 0xFF800000#32) f) (funext fun k => ?_)
  refine Eq.trans ?_ (vScores_apply x0 x1 i k)
  exact congrArg (vScores x0 x1) (funext fun ax => Fin.ext (by match ax with | ⟨0, _⟩ => rfl | ⟨1, _⟩ => rfl))

/-- The exponential at `(i, k)`. -/
theorem vWeight_apply (i : Fin 512) (k : Fin 2048) : vWeight x0 x1 (ix2 i k) = bWeight (bScores x0 x1) i k := by
  unfold vWeight bWeight
  show Ideal.exp (vScores x0 x1 (ix2 i k) - broadcastTo S512x2048 (shapeCast S512x1 (vMax x0 x1) shapeCasts_S512_S512x1) broadcasts_S512x1_S512x2048 (ix2 i k)) = _
  rw [vScores_apply, Cert.GraphConv.Column.broadcastTo_a1_ab_apply, Cert.GraphConv.Column.shapeCast_a_a1_apply, vMax_apply]

/-- The row sum at `i`. -/
theorem vDenom_apply (i : Fin 512) : vDenom x0 x1 (ix1 i) = bDenom (bScores x0 x1) i := by
  unfold vDenom bDenom
  refine (Cert.LaneSum.sum_last2 (vWeight x0 x1) 0x00000000#32 reduces_S512x2048_S512 (.inl rfl) rfl i).trans ?_
  exact Finset.sum_congr rfl fun k _ => vWeight_apply x0 x1 i k

/-- The value product's dimension record is the plain one: left contracted on its second axis, right on its first. -/
theorem pv_plain : dot_S512x2048_S2048x1024_S512x1024_1_0_0_1_n_n = DotDims.plain 512 2048 1024 := rfl

/-- THE STORED VALUE AT AN INDEX: the block's attention output. -/
theorem pay_apply (i : Fin 512) (e : Fin 1024) :
    k1_pay1 (F := Ideal) x0 x1 x2 (ix3 (0 : Fin 1) i e) = bOut (bScores x0 x1) x2 i e := by
  rw [pay_eq]
  refine (shapeCast_ab_1ab_apply _ _ (0 : Fin 1) i e).trans ?_
  unfold bOut
  refine congrArg₂ Ideal.div ?_ ?_
  · refine (Cert.PlainDot.matmul_zero_apply _ pv_plain none _ _ i e).trans ?_
    refine Finset.sum_congr rfl fun k _ => ?_
    refine congrArg₂ (· * ·) (vWeight_apply x0 x1 i k) (shapeCast_1ab_ab_apply _ _ k e)
  · refine (Cert.GraphConv.Column.broadcastTo_a1_ab_apply _ _ i e).trans ?_
    refine (Cert.GraphConv.Column.shapeCast_a_a1_apply _ _ i (0 : Fin 1)).trans ?_
    exact vDenom_apply x0 x1 i

end Payload

end Cert.KernelIdeal.Region1

end
-- ==== Proof.Region1.lean ====
/-
  What the attention kernel's launch leaves in its output array, as one function of the arrays it reads.

  The launch runs a grid of 4 × 4 points: point (b, g) holds query rows 512·g … 512·g + 511 of batch entry b together
  with all 2048 key rows and value rows of that batch entry, and writes back the 512 × 1024 block of outputs of those
  query rows.  The body's stored value at a block index is the block's attention output (the sibling module on the
  body).  Here each block read is placed in its array — a block's element sits, on each axis, at the block index
  times the block's size plus its coordinate inside the block —, the block's attention output is identified with the
  specification's output `outK` at the array's coordinates, and since the 16 blocks cover the output array, the array
  after the launch is `outK` of the scores of the first two arrays and of the third, at every index.
-/
import proofs.«163229_j65481071408069_2_alg».proof.Proof.Gen.KernelIdeal.Frame
import proofs.«163229_j65481071408069_2_alg».proof.Proof.Spec
import proofs.«163229_j65481071408069_2_alg».proof.Proof.Region1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's output against the specification's -/

/-- A block whose scores are row `(b, q)` of the array's scores and whose value rows are batch entry `b`'s has, in
    its row, the specification's output of row `(b, q)`. -/
theorem bOut_eq_outK (s : Fin 512 → Fin 2048 → EReal) (v : S1x2048x1024.Idx → EReal) (S : Cert.Attn.Score) (W : Cert.Attn.Feat)
    (b : Fin 4) (q : Fin 2048) (i : Fin 512) (e : Fin 1024)
    (hs : ∀ k, s i k = S b q k) (hv : ∀ k, v (ix3 (0 : Fin 1) k e) = W b k e) :
    bOut s v i e = Cert.Attn.outK S W b q e := by
  have hmax : bMax s i = Cert.Attn.rowMax S b q := by
    unfold bMax Cert.Attn.rowMax
    exact congrArg (fun f => (Finset.univ : Finset (Fin 2048)).fold max (Ideal.ofBits .f32 0xFF800000#32) f) (funext hs)
  have hw : ∀ k, bWeight s i k = Cert.Attn.weight S b q k := fun k => by
    unfold bWeight Cert.Attn.weight
    rw [hs k, hmax]
  have hd : bDenom s i = Cert.Attn.denom S b q := by
    unfold bDenom Cert.Attn.denom
    exact Finset.sum_congr rfl fun k _ => hw k
  unfold bOut Cert.Attn.outK
  rw [hd]
  refine congrArg (fun x => Ideal.div x (Cert.Attn.denom S b q)) ?_
  exact Finset.sum_congr rfl fun k _ => by rw [hw k, hv k]

/-! ## The windows' index maps over the grid -/

theorem hz3 : (![0, 0, 0] : Fin 3 → Nat) = fun _ => 0 := funext fun a => by fin_cases a <;> rfl

/-- The printed index maps, decided over the 16 points: the query window moves with the output window, the key and
    value windows follow its batch axis only and sit at block 0 on the others, and the output's block indices stay
    in their ranges. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every block of the output array is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-! ## The array function -/

/-- The specification's output of the three arrays the launch reads, as a function of the output array's index. -/
def G (c : Dev nD) : S4x2048x1024.Idx → EReal := fun j =>
  Cert.Attn.outK (Cert.Attn.scores (Cert.Attn.at3 (V c main_v5)) (Cert.Attn.at3 (V c main_v6))) (Cert.Attn.at3 (V c main_v7))
    (j 0) (j 1) (j 2)

/-! ## The input blocks, read in their arrays -/

/-- The query block's element `(0, i, e)` at point `t` is the first array's element at batch entry `b`, row `q`, when
    `b` is the output block's batch index and `q` is row `i` of the output block's row block. -/
theorem iblk0_apply (c : Dev nD) (t : Fin cfg1.N) (i : Fin 512) (e : Fin 1024) (b : Fin 4) (q : Fin 2048)
    (hb : b.val = win1_3.index t (0 : Fin 3)) (hq : q.val = win1_3.index t (1 : Fin 3) * 512 + i.val) :
    (iblk1 V c 0 t : S1x512x1024.Idx → EReal) (ix3 (0 : Fin 1) i e) = Cert.Attn.at3 (V c main_v5) b q e := by
  obtain ⟨e0, e1, e2, -⟩ := idx_facts t
  show V c main_v5 (((cfg1.win 0).blk t).view.emb (ix3 (0 : Fin 1) i e)) = V c main_v5 (ix3 b q e)
  refine congrArg (V c main_v5) (funext fun a => Fin.ext ?_)
  match a with
  | ⟨0, _⟩ => show win1_0.index t (0 : Fin 3) * 1 + 1 * (0 : Fin 1).val = b.val; rw [e0, hb]; show _ * 1 + 1 * 0 = _; omega
  | ⟨1, _⟩ => show win1_0.index t (1 : Fin 3) * 512 + 1 * i.val = q.val; rw [e1, hq]; omega
  | ⟨2, _⟩ => show win1_0.index t (2 : Fin 3) * 1024 + 1 * e.val = e.val; rw [e2]; omega

/-- The key block's element `(0, k, e)` at point `t` is the second array's element at batch entry `b`, row `k`. -/
theorem iblk1_apply (c : Dev nD) (t : Fin cfg1.N) (k : Fin 2048) (e : Fin 1024) (b : Fin 4)
    (hb : b.val = win1_3.index t (0 : Fin 3)) :
    (iblk1 V c 1 t : S1x2048x1024.Idx → EReal) (ix3 (0 : Fin 1) k e) = Cert.Attn.at3 (V c main_v6) b k e := by
  obtain ⟨-, -, -, e0, e1, e2, -⟩ := idx_facts t
  show V c main_v6 (((cfg1.win 1).blk t).view.emb (ix3 (0 : Fin 1) k e)) = V c main_v6 (ix3 b k e)
  refine congrArg (V c main_v6) (funext fun a => Fin.ext ?_)
  match a with
  | ⟨0, _⟩ => show win1_1.index t (0 : Fin 3) * 1 + 1 * (0 : Fin 1).val = b.val; rw [e0, hb]; show _ * 1 + 1 * 0 = _; omega
  | ⟨1, _⟩ => show win1_1.index t (1 : Fin 3) * 2048 + 1 * k.val = k.val; rw [e1]; omega
  | ⟨2, _⟩ => show win1_1.index t (2 : Fin 3) * 1024 + 1 * e.val = e.val; rw [e2]; omega

/-- The value block's element `(0, k, e)` at point `t` is the third array's element at batch entry `b`, row `k`. -/
theorem iblk2_apply (c : Dev nD) (t : Fin cfg1.N) (k : Fin 2048) (e : Fin 1024) (b : Fin 4)
    (hb : b.val = win1_3.index t (0 : Fin 3)) :
    (iblk1 V c 2 t : S1x2048x1024.Idx → EReal) (ix3 (0 : Fin 1) k e) = Cert.Attn.at3 (V c main_v7) b k e := by
  obtain ⟨-, -, -, -, -, -, e0, e1, e2, -⟩ := idx_facts t
  show V c main_v7 (((cfg1.win 2).blk t).view.emb (ix3 (0 : Fin 1) k e)) = V c main_v7 (ix3 b k e)
  refine congrArg (V c main_v7) (funext fun a => Fin.ext ?_)
  match a with
  | ⟨0, _⟩ => show win1_2.index t (0 : Fin 3) * 1 + 1 * (0 : Fin 1).val = b.val; rw [e0, hb]; show _ * 1 + 1 * 0 = _; omega
  | ⟨1, _⟩ => show win1_2.index t (1 : Fin 3) * 2048 + 1 * k.val = k.val; rw [e1]; omega
  | ⟨2, _⟩ => show win1_2.index t (2 : Fin 3) * 1024 + 1 * e.val = e.val; rw [e2]; omega

/-! ## From the blocks to the array -/

/-- WHAT POINT `t` WRITES BACK is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz3]
  simp only [View.ld_unit_zero (S := S1x512x1024) hz3, View.ld_unit_zero (S := S1x2048x1024) hz3]
  obtain ⟨-, -, -, -, -, -, -, -, -, r0, r1, r2⟩ := idx_facts t
  funext j
  have hj0 : (j 0).val < 1 := (j 0).isLt
  have hj1 : (j 1).val < 512 := (j 1).isLt
  have hj2 : (j 2).val < 1024 := (j 2).isLt
  have hxj : (cfg1.win 3).xinj (grid1.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  obtain ⟨b, hb⟩ : ∃ b : Fin 4, b.val = win1_3.index t (0 : Fin 3) := ⟨⟨win1_3.index t (0 : Fin 3), by omega⟩, rfl⟩
  obtain ⟨q, hq⟩ : ∃ q : Fin 2048, q.val = win1_3.index t (1 : Fin 3) * 512 + (j 1).val :=
    ⟨⟨win1_3.index t (1 : Fin 3) * 512 + (j 1).val, by omega⟩, rfl⟩
  have hemb : ((cfg1.win 3).blk t).view.emb j = ix3 b q (⟨(j 2).val, hj2⟩ : Fin 1024) :=
    funext fun a => Fin.ext (by
      match a with
      | ⟨0, _⟩ => show win1_3.index t (0 : Fin 3) * 1 + 1 * (j 0).val = b.val; omega
      | ⟨1, _⟩ => show win1_3.index t (1 : Fin 3) * 512 + 1 * (j 1).val = q.val; omega
      | ⟨2, _⟩ => show win1_3.index t (2 : Fin 3) * 1024 + 1 * (j 2).val = (j 2).val; omega)
  show k1_pay1 (F := Ideal) (iblk1 V c 0 t) (iblk1 V c 1 t) (iblk1 V c 2 t) ((cfg1.win 3).xinj (grid1.coords t) j)
      = G V c (((cfg1.win 3).blk t).view.emb j)
  rw [hxj, hemb]
  show _ = Cert.Attn.outK (Cert.Attn.scores (Cert.Attn.at3 (V c main_v5)) (Cert.Attn.at3 (V c main_v6)))
      (Cert.Attn.at3 (V c main_v7)) b q (⟨(j 2).val, hj2⟩ : Fin 1024)
  refine (pay_apply (iblk1 V c 0 t) (iblk1 V c 1 t) (iblk1 V c 2 t) _ _).trans ?_
  refine bOut_eq_outK _ _ _ _ b q _ _ (fun k => ?_) (fun k => ?_)
  · unfold bScores Cert.Attn.scores
    refine Finset.sum_congr rfl fun e' _ => ?_
    rw [iblk0_apply V c t ⟨(j 1).val, hj1⟩ e' b q hb hq, iblk1_apply V c t k e' b hb]
  · exact iblk2_apply V c t k _ b hb

/-- An index of the array is in point `t`'s block iff each coordinate is in the block's range on its axis. -/
theorem mem_blk (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v8).slice (win1_3.rect t)).set ↔ _
  rw [View.set_slice_whole, Rect.mem_set_unit]
  exact Iff.rfl

/-- Every index of the output array is in some point's block: `(b, q, ·)` in the block of batch entry `b` and row
    block `q / 512`. -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE OUTPUT ARRAY after the launch is `G`. -/
theorem arr_eq (c : Dev nD) : (dat1 (F := Ideal) V c).arrAt 3 cfg1.N = G V c :=
  (dat1 (F := Ideal) V c).arrAt_eq_of_cover 3 (G V c) (fun t _ => flushed_eq V c t) cover

/-- THE OUTPUT ARRAY AT AN INDEX: the specification's output, with the division applied once to the weighted sum, of
    the scores of the first two arrays the launch reads and of the third. -/
theorem arr_out (c : Dev nD) (b : Fin 4) (q : Fin 2048) (e : Fin 1024) :
    (dat1 (F := Ideal) V c).arrAt 3 cfg1.N (ix3 b q e)
      = Cert.Attn.outK (Cert.Attn.scores (Cert.Attn.at3 (V c main_v5)) (Cert.Attn.at3 (V c main_v6))) (Cert.Attn.at3 (V c main_v7)) b q e := by
  rw [arr_eq]
  rfl

end Cert.KernelIdeal.Region1

end
-- ==== Proof.LibHostRowMax.lean ====
/-
  The host's one-operand reduction over the last axis of a rank-3 array, read at a row given by coordinates.

  An array `[B, m, n]` reduced over axis 2 with a commutative and associative body `f` has, at row `(b, q)`,
  the fold of `f` from the initial value's element over the row's `n` entries `x (b, q, k)`. This is the
  library's statement for a reduction over any single axis (the fold over the source indices that drop to
  the result index, re-indexed by the dropped axis's coordinate) with the inserted index computed for the
  literal axis 2 of a rank-3 shape: `(b, q)` with `k` inserted last is `(b, q, k)`.
-/
import Idealize.ShloMosaic.PureOps.Reduce
import Idealize.ShloMosaic.Lib.ValueIdx

namespace Cert.HostRowMax

open Idealize.ShloMosaic Idealize.ShloMosaic.ValueIdx

variable {α : Type}

/-- The row index `(b, q)` of a `[B, m]` result with coordinate `k` put back on the dropped last axis of
    `[B, m, n]` is `(b, q, k)`. -/
theorem lift_ix3 {B m n : Nat} (h : (⟨3, ![B, m, n]⟩ : Shape).Reduces [2] (⟨2, ![B, m]⟩ : Shape)) (b : Fin B) (q : Fin m)
    (k : Fin ((⟨3, ![B, m, n]⟩ : Shape).size 2)) : h.lift (ix2 b q) k = ix3 b q (⟨k.val, k.isLt⟩ : Fin n) := by
  funext c; apply Fin.ext
  fin_cases c <;> rfl

/-- A one-operand host reduction of a `[B, m, n]` array over its last axis, with a commutative and
    associative body, is at row `(b, q)` the fold of the body from the initial value's element over the
    row's entries. -/
theorem hostReduce_lastAxis3_apply {B m n : Nat} {u : Shape} (f : α → α → α) [Std.Commutative f] [Std.Associative f]
    (x : (⟨3, ![B, m, n]⟩ : Shape).Idx → α) (init : u.Idx → α)
    (h' : (⟨3, ![B, m, n]⟩ : Shape).ReducesTo [2] (⟨2, ![B, m]⟩ : Shape))
    (h : (⟨3, ![B, m, n]⟩ : Shape).Reduces [2] (⟨2, ![B, m]⟩ : Shape)) (hu : 0 < u.numel) (b : Fin B) (q : Fin m) :
    Host.reduce f x init h' hu (ix2 b q)
      = (Finset.univ : Finset (Fin n)).fold f (init (Shape.Idx.first hu)) (fun k => x (ix3 b q k)) := by
  rw [Host.reduce_eq_fold_single f x init h' h hu]
  have hf : (x ∘ h.lift (ix2 b q)) = fun k : Fin n => x (ix3 b q k) := funext fun k => congrArg x (lift_ix3 h b q k)
  exact congrArg (fun g => Finset.fold f (init (Shape.Idx.first hu)) g (Finset.univ : Finset (Fin n))) hf

end Cert.HostRowMax
-- ==== Proof.RefValue.lean ====
/-
  The reference program's result, read index by index, is the attention output `outR` of the specification.

  The reference computes, in order: the three projections `x · wᵀ` (queries, keys, values); the queries divided by
  the square root of `1024`; the scores (queries against keys within a batch); each query's largest score, as a
  fold of `max` from `-∞` over the keys followed by one more `max` with `-∞`; the exponential of each score minus
  that maximum; the sum of those weights over the keys, started from zero; each weight divided by that sum; and the
  normalised weights against the values. Each stage is read here at coordinates, bottom-up, from the generated
  per-operation reading of the program; a stage that only copies a value along an axis keeps the value.

  The one stage the generated module does not read, the fold of `max` over the keys, is read with the general
  lemma on a host reduction over the last axis of a rank-3 array. A fold of `max` is at least the value it starts
  from, so the further `max` with `-∞` (the same starting value) changes nothing.
-/
import proofs.«163229_j65481071408069_2_alg».proof.Proof.Gen.ReferenceIdeal.Read
import proofs.«163229_j65481071408069_2_alg».proof.Proof.Spec
import proofs.«163229_j65481071408069_2_alg».proof.Proof.LibHostRowMax
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Attn

/-- The activations and a weight matrix, as the arrays of extended reals they are at the ideal instance. -/
abbrev XT := (⟨S4x2048x1024, .f32⟩ : BufTy).Contents (Elt Ideal)
abbrev WT := (⟨S1024x1024, .f32⟩ : BufTy).Contents (Elt Ideal)

/-! ## The composed indices at coordinates -/

theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 2048) (e k : Fin 1024) : ridx_main_v0 (ix3 b s e) k = ix2 e k :=
  funext fun a => Fin.ext (by match a with | ⟨0, _⟩ => rfl | ⟨1, _⟩ => rfl)
theorem lidx_v6 (b : Fin 4) (q k : Fin 2048) (e : Fin 1024) : lidx_main_v6 (ix3 b q k) e = ix3 b q e :=
  funext fun a => Fin.ext (by match a with | ⟨0, _⟩ => rfl | ⟨1, _⟩ => rfl | ⟨2, _⟩ => rfl)
theorem ridx_v6 (b : Fin 4) (q k : Fin 2048) (e : Fin 1024) : ridx_main_v6 (ix3 b q k) e = ix3 b k e :=
  funext fun a => Fin.ext (by match a with | ⟨0, _⟩ => rfl | ⟨1, _⟩ => rfl | ⟨2, _⟩ => rfl)
theorem idx_v10_v11 (b : Fin 4) (q k : Fin 2048) : idx_main_v10 (idx_main_v11 (ix3 b q k)) = ix2 b q :=
  funext fun a => Fin.ext (by match a with | ⟨0, _⟩ => rfl | ⟨1, _⟩ => rfl)
theorem idx_v14 (b : Fin 4) (q k : Fin 2048) : idx_main_v14 (ix2 b q) k = ix3 b q k :=
  funext fun a => Fin.ext (by match a with | ⟨0, _⟩ => rfl | ⟨1, _⟩ => rfl | ⟨2, _⟩ => rfl)
theorem idx_v15_v16 (b : Fin 4) (q k : Fin 2048) : idx_main_v15 (idx_main_v16 (ix3 b q k)) = ix2 b q :=
  funext fun a => Fin.ext (by match a with | ⟨0, _⟩ => rfl | ⟨1, _⟩ => rfl)
theorem lidx_v18 (b : Fin 4) (q k : Fin 2048) (e : Fin 1024) : lidx_main_v18 (ix3 b q e) k = ix3 b q k :=
  funext fun a => Fin.ext (by match a with | ⟨0, _⟩ => rfl | ⟨1, _⟩ => rfl | ⟨2, _⟩ => rfl)
theorem ridx_v18 (b : Fin 4) (q k : Fin 2048) (e : Fin 1024) : ridx_main_v18 (ix3 b q e) k = ix3 b k e :=
  funext fun a => Fin.ext (by match a with | ⟨0, _⟩ => rfl | ⟨1, _⟩ => rfl | ⟨2, _⟩ => rfl)

/-! ## The stages at coordinates, bottom-up -/

/-- The first projection (queries, before scaling). -/
theorem v0_at (x0 : XT) (w : WT) (b : Fin 4) (s : Fin 2048) (e : Fin 1024) :
    val_main_v0 (F := Ideal) x0 w (ix3 b s e) = proj x0 w b s e := by
  rw [val_main_v0_apply]
  unfold proj
  refine Finset.sum_congr rfl fun k _ => ?_
  rw [lidx_v0, ridx_v0]

/-- The second projection (keys): the same operation on another weight matrix. -/
theorem v1_at (x0 : XT) (w : WT) (b : Fin 4) (s : Fin 2048) (e : Fin 1024) :
    val_main_v1 (F := Ideal) x0 w (ix3 b s e) = proj x0 w b s e := v0_at x0 w b s e

/-- The third projection (values). -/
theorem v2_at (x0 : XT) (w : WT) (b : Fin 4) (s : Fin 2048) (e : Fin 1024) :
    val_main_v2 (F := Ideal) x0 w (ix3 b s e) = proj x0 w b s e := v0_at x0 w b s e

/-- The queries divided by the square root of `1024`, the divisor copied to every entry. -/
theorem v5_at (x0 : XT) (x3 : WT) (b : Fin 4) (s : Fin 2048) (e : Fin 1024) :
    val_main_v5 (F := Ideal) x0 x3 (ix3 b s e) = qR x0 x3 b s e := by
  rw [val_main_v5_apply, v0_at, val_main_v4_apply, val_main_v3_apply, val_main_cst_apply]
  rfl

/-- The scores. -/
theorem v6_at (x0 : XT) (x3 x4 : WT) (b : Fin 4) (q k : Fin 2048) :
    val_main_v6 (F := Ideal) x0 x3 x4 (ix3 b q k) = scores (qR x0 x3) (proj x0 x4) b q k := by
  rw [val_main_v6_apply]
  unfold scores
  refine Finset.sum_congr rfl fun e _ => ?_
  rw [lidx_v6, ridx_v6, v5_at, v1_at]

/-- The fold of `max` over the keys, from `-∞`. -/
theorem v7_at (x0 : XT) (x3 x4 : WT) (b : Fin 4) (q : Fin 2048) :
    val_main_v7 (F := Ideal) x0 x3 x4 (ix2 b q) = rowMax (scores (qR x0 x3) (proj x0 x4)) b q := by
  unfold val_main_v7
  have h : S4x2048x2048.Reduces [2] S4x2048 := by decide
  refine (Cert.HostRowMax.hostReduce_lastAxis3_apply (α := Ideal .f32) (B := 4) (m := 2048) (n := 2048) (u := S_)
    (FloatOps.maximumf (F := Ideal) (φ := .f32))
    (val_main_v6 (F := Ideal) x0 x3 x4) (val_main_cst_0 (F := Ideal)) reducesTo_S4x2048x2048_S4x2048_d2 h h_S_ b q).trans ?_
  unfold rowMax
  have hf : (fun k : Fin 2048 => val_main_v6 (F := Ideal) x0 x3 x4 (ix3 b q k))
      = fun k => scores (qR x0 x3) (proj x0 x4) b q k := funext fun k => v6_at x0 x3 x4 b q k
  rw [hf]
  rfl

/-- One more `max` with `-∞`, the value the fold started from, changes nothing. -/
theorem v9_at (x0 : XT) (x3 x4 : WT) (b : Fin 4) (q : Fin 2048) :
    val_main_v9 (F := Ideal) x0 x3 x4 (ix2 b q) = rowMax (scores (qR x0 x3) (proj x0 x4)) b q := by
  rw [val_main_v9_apply, val_main_v8_apply, val_main_cst_1_apply, v7_at]
  exact max_eq_right ((Finset.le_fold_max _).2 (Or.inl le_rfl))

/-- The row's maximum copied along the row. -/
theorem v11_at (x0 : XT) (x3 x4 : WT) (b : Fin 4) (q k : Fin 2048) :
    val_main_v11 (F := Ideal) x0 x3 x4 (ix3 b q k) = rowMax (scores (qR x0 x3) (proj x0 x4)) b q := by
  rw [val_main_v11_apply, val_main_v10_apply, idx_v10_v11, v9_at]

/-- The unnormalised weights. -/
theorem v13_at (x0 : XT) (x3 x4 : WT) (b : Fin 4) (q k : Fin 2048) :
    val_main_v13 (F := Ideal) x0 x3 x4 (ix3 b q k) = weight (scores (qR x0 x3) (proj x0 x4)) b q k := by
  rw [val_main_v13_apply, val_main_v12_apply, v6_at, v11_at]
  rfl

/-- The denominator: the sum of the row's weights, started from zero. -/
theorem v14_at (x0 : XT) (x3 x4 : WT) (b : Fin 4) (q : Fin 2048) :
    val_main_v14 (F := Ideal) x0 x3 x4 (ix2 b q) = denom (scores (qR x0 x3) (proj x0 x4)) b q := by
  rw [val_main_v14_apply, val_main_cst_2_apply, Ideal.ofBits_def, Ideal.ofBits_zero_f32, zero_add]
  unfold denom
  refine Finset.sum_congr rfl fun k _ => ?_
  rw [idx_v14, v13_at]

/-- The denominator copied along the row. -/
theorem v16_at (x0 : XT) (x3 x4 : WT) (b : Fin 4) (q k : Fin 2048) :
    val_main_v16 (F := Ideal) x0 x3 x4 (ix3 b q k) = denom (scores (qR x0 x3) (proj x0 x4)) b q := by
  rw [val_main_v16_apply, val_main_v15_apply, idx_v15_v16, v14_at]

/-- The normalised weights. -/
theorem v17_at (x0 : XT) (x3 x4 : WT) (b : Fin 4) (q k : Fin 2048) :
    val_main_v17 (F := Ideal) x0 x3 x4 (ix3 b q k)
      = Ideal.div (weight (scores (qR x0 x3) (proj x0 x4)) b q k) (denom (scores (qR x0 x3) (proj x0 x4)) b q) := by
  rw [val_main_v17_apply, v13_at, v16_at]
  rfl

/-- The reference's result at `(b, q, e)` is the specification's `outR`: the normalised weights of query `q`
    against the values' feature `e`. -/
theorem ref_eq (x0 : (⟨S4x2048x1024, .f32⟩ : BufTy).Contents (Elt Ideal)) (x3 x4 x5 : (⟨S1024x1024, .f32⟩ : BufTy).Contents (Elt Ideal))
    (b : Fin 4) (q : Fin 2048) (e : Fin 1024) :
    Cert.ReferenceIdeal.Read.val_main_v18 (F := Ideal) x0 x3 x4 x5 (ix3 b q e)
      = Cert.Attn.outR (Cert.Attn.scores (Cert.Attn.qR x0 x3) (Cert.Attn.proj x0 x4)) (Cert.Attn.proj x0 x5) b q e := by
  rw [val_main_v18_apply]
  unfold outR
  refine Finset.sum_congr rfl fun k _ => ?_
  rw [lidx_v18, ridx_v18, v17_at, v2_at]

end Cert.ReferenceIdeal.RefValue

end
-- ==== Proof.lean ====
/-
  Single-head softmax attention on the chip against its plain array reference: the proof of `Cert.Claim`.

  The kernel is two launches.  The first projects the flattened activations `[8192, 1024]` onto queries, keys and
  values, `x · wᵀ`, sixteen blocks of 512 rows, and scales the queries by `2⁻⁵`.  The second, for each batch and
  each tile of 512 queries, forms the scores against all 2048 keys, subtracts each row's maximum, exponentiates,
  sums the weights, multiplies the weights into the values and divides the product once by the weights' sum.  The
  reference computes the same projections, divides the queries by `√1024`, and applies a softmax that divides every
  weight by the sum before the product with the values.

  Over the extended reals the two are the same function of real inputs:
    * dividing by `√1024 = 32` is multiplying by `2⁻⁵` (Proof/SpecLaws.lean, `qK_eq_qR`);
    * the row maximum of real scores is real, every weight `exp (S - M)` is a positive real and so is their sum, and
      then `(∑ k, P k * V k) / L = ∑ k, (P k / L) * V k` is an identity of real numbers (`outK_eq_outR`);
    * the precondition says every input entry is finite, that is, a real number (Proof/Finite.lean).

  The modules: Proof/Spec.lean and Proof/Flat.lean state the functions; Proof/Region0.lean and Proof/Region1.lean
  say what each launch leaves in its output arrays, block by block and then as whole arrays; Proof/GlueHost.lean
  reads the host's reshapes and format changes between them; Proof/KernelRun.lean is the kernel's run with its
  result named and Proof/Compose.lean the result as a function of the arguments; Proof/RefValue.lean reads the
  reference's run stage by stage to the same specification; Proof/Assemble.lean puts the five claims together.
-/
import proofs.«163229_j65481071408069_2_alg».proof.Defs
import proofs.«163229_j65481071408069_2_alg».proof.Proof.Gen.Kernel
import proofs.«163229_j65481071408069_2_alg».proof.Proof.Gen.KernelIdeal
import proofs.«163229_j65481071408069_2_alg».proof.Proof.Gen.ReferenceIdeal
import proofs.«163229_j65481071408069_2_alg».proof.Proof.Gen.Pre_finite_inputs
import proofs.«163229_j65481071408069_2_alg».proof.Proof.Assemble
import proofs.«163229_j65481071408069_2_alg».proof.Proof.Region0
import proofs.«163229_j65481071408069_2_alg».proof.Proof.Region1
import proofs.«163229_j65481071408069_2_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves,
    Assemble.algebraic
      ⟨Cert.KernelIdeal.Region0.arr_q, Cert.KernelIdeal.Region0.arr_k, Cert.KernelIdeal.Region0.arr_v⟩
      Cert.KernelIdeal.Region1.arr_out
      Cert.ReferenceIdeal.RefValue.ref_eq⟩

end Cert.Proof

end
